-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S500000x16 : Shape := ⟨2, ![500000, 16]⟩
abbrev S500000 : Shape := ⟨1, ![500000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S256x256 : Shape := ⟨2, ![256, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000x16 : S_.BroadcastsInDim S500000x16 (![] : Fin 0 → Fin S500000x16.rank)
  reducesTo_S500000x16_S_d0_1 : S500000x16.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg9 : FVec F S256 .f32) (main_arg10 : FVec F S128x256 .f32) (main_arg11 : FVec F S128 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S128x256 .f32 := Host.absf main_arg10
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S128x256 .f32) (main_arg7 : FVec F S128 .f32) (main_arg8 : FVec F S256x256 .f32) (main_arg9 : FVec F S256 .f32) (main_arg10 : FVec F S128x256 .f32) (main_arg11 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg6
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : FVec F S500000x16 .f32) (main_arg2 : IVec S500000 32) (main_arg3 : IVec S500000 32) (main_arg4 : FVec F S256x128 .f32) (main_arg5 : FVec F S256 .f32) (main_arg6 : FVec F S128x256 .f32) (main_arg7 : FVec F S128 .f32) (main_arg8 : FVec F S256x256 .f32) (main_arg9 : FVec F S256 .f32) (main_arg10 : FVec F S128x256 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000x16 .f32 := Host.absf main_arg1
  let main_cst_0 : FVec F S_ .f32 := constant S_ .f32 0x7F800000#32
  let main_v5 : FVec F S500000x16 .f32 := broadcastInDim S500000x16 ![] bcast_S_S500000x16 main_cst_0
  let main_v6 : IVec S500000x16 1 := cmpf .olt main_v4 main_v5
  let main_c_1 : IVec S_ 1 := constantI S_ 1 1#1
  let main_v7 : IVec S_ 1 := (fun x v => Host.reduce IntOp.andi x v reducesTo_S500000x16_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S500000x16 : Shape := ⟨2, ![500000, 16]⟩
abbrev S500000 : Shape := ⟨1, ![500000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S256x256 : Shape := ⟨2, ![256, 256]⟩
abbrev S5000x128 : Shape := ⟨2, ![5000, 128]⟩
abbrev S5000x256 : Shape := ⟨2, ![5000, 256]⟩
abbrev S1x256 : Shape := ⟨2, ![1, 256]⟩
abbrev S1x128 : Shape := ⟨2, ![1, 128]⟩
abbrev S_ : Shape := ⟨0, ![]⟩
abbrev S500000x1 : Shape := ⟨2, ![500000, 1]⟩
abbrev S500000x128 : Shape := ⟨2, ![500000, 128]⟩

abbrev nBuf : Space → Nat
  | .hbm => 40
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S500000x16, .f32⟩
  | .hbm, ⟨2, _⟩ => ⟨S500000, .i32⟩
  | .hbm, ⟨3, _⟩ => ⟨S500000, .i32⟩
  | .hbm, ⟨4, _⟩ => ⟨S256x128, .f32⟩
  | .hbm, ⟨5, _⟩ => ⟨S256, .f32⟩
  | .hbm, ⟨6, _⟩ => ⟨S128x256, .f32⟩
  | .hbm, ⟨7, _⟩ => ⟨S128, .f32⟩
  | .hbm, ⟨8, _⟩ => ⟨S256x256, .f32⟩
  | .hbm, ⟨9, _⟩ => ⟨S256, .f32⟩
  | .hbm, ⟨10, _⟩ => ⟨S128x256, .f32⟩
  | .hbm, ⟨11, _⟩ => ⟨S128, .f32⟩
  | .hbm, ⟨12, _⟩ => ⟨S128x256, .f32⟩
  | .hbm, ⟨13, _⟩ => ⟨S128x256, .bf16⟩
  | .hbm, ⟨14, _⟩ => ⟨S256x128, .f32⟩
  | .hbm, ⟨15, _⟩ => ⟨S256x128, .bf16⟩
  | .hbm, ⟨16, _⟩ => ⟨S50000x128, .f32⟩
  | .hbm, ⟨17, _⟩ => ⟨S_, .i32⟩
  | .hbm, ⟨18, _⟩ => ⟨S500000, .i32⟩
  | .hbm, ⟨19, _⟩ => ⟨S500000, .i1⟩
  | .hbm, ⟨20, _⟩ => ⟨S_, .i32⟩
  | .hbm, ⟨21, _⟩ => ⟨S500000, .i32⟩
  | .hbm, ⟨22, _⟩ => ⟨S500000, .i32⟩
  | .hbm, ⟨23, _⟩ => ⟨S500000, .i32⟩
  | .hbm, ⟨24, _⟩ => ⟨S500000x1, .i32⟩
  | .hbm, ⟨25, _⟩ => ⟨S500000x128, .f32⟩
  | .hbm, ⟨26, _⟩ => ⟨S_, .f32⟩
  | .hbm, ⟨27, _⟩ => ⟨S50000x128, .f32⟩
  | .hbm, ⟨28, _⟩ => ⟨S500000x1, .i32⟩
  | .hbm, ⟨29, _⟩ => ⟨S50000x128, .f32⟩
  | .hbm, ⟨30, _⟩ => ⟨S256x128, .f32⟩
  | .hbm, ⟨31, _⟩ => ⟨S128x256, .f32⟩
  | .hbm, ⟨32, _⟩ => ⟨S128x256, .bf16⟩
  | .hbm, ⟨33, _⟩ => ⟨S256x128, .f32⟩
  | .hbm, ⟨34, _⟩ => ⟨S128x256, .f32⟩
  | .hbm, ⟨35, _⟩ => ⟨S128x256, .bf16⟩
  | .hbm, ⟨36, _⟩ => ⟨S256x128, .f32⟩
  | .hbm, ⟨37, _⟩ => ⟨S256x128, .bf16⟩
  | .hbm, ⟨38, _⟩ => ⟨S50000x128, .f32⟩
  | .hbm, ⟨39, _⟩ => ⟨S500000x16, .f32⟩
  | .local _ .vmem, ⟨0, _⟩ => ⟨S5000x128, .f32⟩
  | .local _ .vmem, ⟨1, _⟩ => ⟨S5000x128, .f32⟩
  | .local _ .vmem, ⟨2, _⟩ => ⟨S128x256, .bf16⟩
  | .local _ .vmem, ⟨3, _⟩ => ⟨S256, .f32⟩
  | .local _ .vmem, ⟨4, _⟩ => ⟨S256x128, .bf16⟩
  | .local _ .vmem, ⟨5, _⟩ => ⟨S128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x256, .bf16⟩
  | .local _ .vmem, ⟨13, _⟩ => ⟨S128x256, .bf16⟩
  | .local _ .vmem, ⟨14, _⟩ => ⟨S256, .f32⟩
  | .local _ .vmem, ⟨15, _⟩ => ⟨S256x128, .bf16⟩
  | .local _ .vmem, ⟨16, _⟩ => ⟨S128, .f32⟩
  | .local _ .vmem, ⟨17, _⟩ => ⟨S5000x128, .f32⟩
  | .local _ .vmem, ⟨18, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  transposes_S256x128_S128x256_1_0 : S256x128.Transposes [1, 0] S128x256
  bitsLt_bf16_f32 : FTy.bits .bf16 < FTy.bits .f32
  transposes_S128x256_S256x128_1_0 : S128x256.Transposes [1, 0] S256x128
  inb_S5000x128_S5000x128_0_0 : ∀ a, (![0, 0] : Fin 2 → Nat) a + S5000x128.size a ≤ S5000x128.size a
  h_S5000x128 : 0 < S5000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S500000 : S_.BroadcastsInDim S500000 (![] : Fin 0 → Fin S500000.rank)
  bcast_S500000_S500000x1_0 : S500000.BroadcastsInDim S500000x1 (![0] : Fin 1 → Fin S500000x1.rank)
  bcast_S_S50000x128 : S_.BroadcastsInDim S50000x128 (![] : Fin 0 → Fin S50000x128.rank)
  slices_S256x256_S256x128_0_0 : S256x256.Slices ![0, 0] S256x128
  slices_S256x256_S256x128_0_128 : S256x256.Slices ![0, 128] S256x128
  shapeCasts_S5000x128_S5000x128 : S5000x128.ShapeCasts S5000x128
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .bf16 = 32 ∨ (Rect.block (s := S128x256) S128x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .bf16 = 32 ∨ (Rect.block (s := S128x256) S128x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .bf16 = 32 ∨ (Rect.block (s := S256x128) S256x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S500000x16 : Shape := ⟨2, ![500000, 16]⟩
abbrev S500000 : Shape := ⟨1, ![500000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S256x256 : Shape := ⟨2, ![256, 256]⟩
abbrev S50000x256 : Shape := ⟨2, ![50000, 256]⟩
abbrev S1x256 : Shape := ⟨2, ![1, 256]⟩
abbrev S_ : Shape := ⟨0, ![]⟩
abbrev S1x128 : Shape := ⟨2, ![1, 128]⟩
abbrev S500000x1 : Shape := ⟨2, ![500000, 1]⟩
abbrev S500000x128 : Shape := ⟨2, ![500000, 128]⟩

abbrev nBuf : Space → Nat
  | .hbm => 54
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S500000x16, .f32⟩
  | .hbm, ⟨2, _⟩ => ⟨S500000, .i32⟩
  | .hbm, ⟨3, _⟩ => ⟨S500000, .i32⟩
  | .hbm, ⟨4, _⟩ => ⟨S256x128, .f32⟩
  | .hbm, ⟨5, _⟩ => ⟨S256, .f32⟩
  | .hbm, ⟨6, _⟩ => ⟨S128x256, .f32⟩
  | .hbm, ⟨7, _⟩ => ⟨S128, .f32⟩
  | .hbm, ⟨8, _⟩ => ⟨S256x256, .f32⟩
  | .hbm, ⟨9, _⟩ => ⟨S256, .f32⟩
  | .hbm, ⟨10, _⟩ => ⟨S128x256, .f32⟩
  | .hbm, ⟨11, _⟩ => ⟨S128, .f32⟩
  | .hbm, ⟨12, _⟩ => ⟨S128x256, .f32⟩
  | .hbm, ⟨13, _⟩ => ⟨S50000x256, .f32⟩
  | .hbm, ⟨14, _⟩ => ⟨S1x256, .f32⟩
  | .hbm, ⟨15, _⟩ => ⟨S50000x256, .f32⟩
  | .hbm, ⟨16, _⟩ => ⟨S50000x256, .f32⟩
  | .hbm, ⟨17, _⟩ => ⟨S_, .f32⟩
  | .hbm, ⟨18, _⟩ => ⟨S50000x256, .f32⟩
  | .hbm, ⟨19, _⟩ => ⟨S50000x256, .f32⟩
  | .hbm, ⟨20, _⟩ => ⟨S256x128, .f32⟩
  | .hbm, ⟨21, _⟩ => ⟨S50000x128, .f32⟩
  | .hbm, ⟨22, _⟩ => ⟨S1x128, .f32⟩
  | .hbm, ⟨23, _⟩ => ⟨S50000x128, .f32⟩
  | .hbm, ⟨24, _⟩ => ⟨S50000x128, .f32⟩
  | .hbm, ⟨25, _⟩ => ⟨S_, .i32⟩
  | .hbm, ⟨26, _⟩ => ⟨S500000, .i32⟩
  | .hbm, ⟨27, _⟩ => ⟨S500000, .i1⟩
  | .hbm, ⟨28, _⟩ => ⟨S_, .i32⟩
  | .hbm, ⟨29, _⟩ => ⟨S500000, .i32⟩
  | .hbm, ⟨30, _⟩ => ⟨S500000, .i32⟩
  | .hbm, ⟨31, _⟩ => ⟨S500000, .i32⟩
  | .hbm, ⟨32, _⟩ => ⟨S500000x1, .i32⟩
  | .hbm, ⟨33, _⟩ => ⟨S500000x128, .f32⟩
  | .hbm, ⟨34, _⟩ => ⟨S_, .f32⟩
  | .hbm, ⟨35, _⟩ => ⟨S50000x128, .f32⟩
  | .hbm, ⟨36, _⟩ => ⟨S500000x1, .i32⟩
  | .hbm, ⟨37, _⟩ => ⟨S50000x128, .f32⟩
  | .hbm, ⟨38, _⟩ => ⟨S50000x256, .f32⟩
  | .hbm, ⟨39, _⟩ => ⟨S256x256, .f32⟩
  | .hbm, ⟨40, _⟩ => ⟨S50000x256, .f32⟩
  | .hbm, ⟨41, _⟩ => ⟨S1x256, .f32⟩
  | .hbm, ⟨42, _⟩ => ⟨S50000x256, .f32⟩
  | .hbm, ⟨43, _⟩ => ⟨S50000x256, .f32⟩
  | .hbm, ⟨44, _⟩ => ⟨S_, .f32⟩
  | .hbm, ⟨45, _⟩ => ⟨S50000x256, .f32⟩
  | .hbm, ⟨46, _⟩ => ⟨S50000x256, .f32⟩
  | .hbm, ⟨47, _⟩ => ⟨S256x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S50000x128, .f32⟩
  | .hbm, ⟨53, _⟩ => ⟨S500000x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call1_cst : Ref sig .tc := ⟨.hbm, 44, rfl⟩
abbrev main_call1_v0 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩

abbrev nD : Nat := 1
abbrev τ : Topo := Topo.v7x

variable {F : FTy → Type} [FloatOps F]

class Facts₀ : Prop where
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S50000x128 : S_.BroadcastsInDim S50000x128 (![] : Fin 0 → Fin S50000x128.rank)
  concatenates_S50000x128_S50000x128_S50000x256_d1 : Shape.Concatenates [S50000x128, S50000x128] S50000x256 1
  transposes_S256x256_S256x256_1_0 : S256x256.Transposes [1, 0] S256x256
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S50000x256_S256x256_S50000x256_1_0_0_1_n_n_wf : DotDims.WF S50000x256 S256x256 S50000x256 [1] [0] [0] [1] [] []

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.Spec.lean ====
/-
  One round of message passing on a graph, entry by entry over the extended reals.

  Every node r carries 128 features x(r, ·).  A node's message is a two-layer perceptron of its own features,
      msg(r, c) = Σ_{k<256} max(Σ_{j<128} x(r, j) · U(j, k) + b(k), 0) · V(k, c) + d(c),
  with U the 128 × 256 matrix of the first layer (already laid out "features down, hidden units across"), V the
  256 × 128 matrix of the second.  The messages travel along the edges: edge e carries the message of its sender to its
  receiver, and a node's aggregate a(r, ·) is the sum of what arrives (`agg`, kept as ONE composite of the array
  operations that compute it; nothing below looks inside it).  The update reads the features and the aggregate,
      out(r, c) = x(r, c) + (Σ_{k<256} max((Σ_{j<128} x(r, j) · A(j, k) + Σ_{j<128} a(r, j) · B(j, k)) + b(k), 0) · V(k, c) + d(c)),
  A and B the two halves of the update's first layer: one meets the features, the other the aggregate.

  The functions are generic in the number of rows, so the same definition reads a block of rows and the whole array.
-/
import Idealize.ShloMosaic.PureOps.Ideal
import Idealize.ShloMosaic.Lib.ValueIdx

noncomputable section

namespace Cert.Gnn

open Idealize.ShloMosaic Idealize.ShloMosaic.ValueIdx

/-- One entry of the two-layer perceptron of row `p`: hidden unit `k` is `max(x(p,·)·U(·,k) + b(k), 0)`, the entry the
    hidden row against column `q` of `V`, plus `d(q)`. -/
def mlpAt {R : Nat} (x : (⟨2, ![R, 128]⟩ : Shape).Idx → EReal) (U : (⟨2, ![128, 256]⟩ : Shape).Idx → EReal)
    (b : (⟨1, ![256]⟩ : Shape).Idx → EReal) (V : (⟨2, ![256, 128]⟩ : Shape).Idx → EReal) (d : (⟨1, ![128]⟩ : Shape).Idx → EReal)
    (p : Fin R) (q : Fin 128) : EReal :=
  (∑ k : Fin 256, max ((∑ j : Fin 128, x (ix2 p j) * U (ix2 j k)) + b (ix1 k)) 0 * V (ix2 k q)) + d (ix1 q)

/-- The perceptron of every row, as an array. -/
def mlp {R : Nat} (x : (⟨2, ![R, 128]⟩ : Shape).Idx → EReal) (U : (⟨2, ![128, 256]⟩ : Shape).Idx → EReal)
    (b : (⟨1, ![256]⟩ : Shape).Idx → EReal) (V : (⟨2, ![256, 128]⟩ : Shape).Idx → EReal) (d : (⟨1, ![128]⟩ : Shape).Idx → EReal) :
    (⟨2, ![R, 128]⟩ : Shape).Idx → EReal :=
  fun i => mlpAt x U b V d (i 0) (i 1)

theorem mlp_apply {R : Nat} (x : (⟨2, ![R, 128]⟩ : Shape).Idx → EReal) (U : (⟨2, ![128, 256]⟩ : Shape).Idx → EReal)
    (b : (⟨1, ![256]⟩ : Shape).Idx → EReal) (V : (⟨2, ![256, 128]⟩ : Shape).Idx → EReal) (d : (⟨1, ![128]⟩ : Shape).Idx → EReal)
    (p : Fin R) (q : Fin 128) : mlp x U b V d (ix2 p q) = mlpAt x U b V d p q := rfl

/-- One entry of the node update of row `p`: the features' entry plus the perceptron whose first layer reads the
    features through `A` and the aggregate through `B`. -/
def nodeAt {R : Nat} (x a : (⟨2, ![R, 128]⟩ : Shape).Idx → EReal) (A B : (⟨2, ![128, 256]⟩ : Shape).Idx → EReal)
    (b : (⟨1, ![256]⟩ : Shape).Idx → EReal) (V : (⟨2, ![256, 128]⟩ : Shape).Idx → EReal) (d : (⟨1, ![128]⟩ : Shape).Idx → EReal)
    (p : Fin R) (q : Fin 128) : EReal :=
  x (ix2 p q) + ((∑ k : Fin 256, max (((∑ j : Fin 128, x (ix2 p j) * A (ix2 j k)) + (∑ j : Fin 128, a (ix2 p j) * B (ix2 j k)))
    + b (ix1 k)) 0 * V (ix2 k q)) + d (ix1 q))

/-- The update of every row, as an array. -/
def node {R : Nat} (x a : (⟨2, ![R, 128]⟩ : Shape).Idx → EReal) (A B : (⟨2, ![128, 256]⟩ : Shape).Idx → EReal)
    (b : (⟨1, ![256]⟩ : Shape).Idx → EReal) (V : (⟨2, ![256, 128]⟩ : Shape).Idx → EReal) (d : (⟨1, ![128]⟩ : Shape).Idx → EReal) :
    (⟨2, ![R, 128]⟩ : Shape).Idx → EReal :=
  fun i => nodeAt x a A B b V d (i 0) (i 1)

theorem node_apply {R : Nat} (x a : (⟨2, ![R, 128]⟩ : Shape).Idx → EReal) (A B : (⟨2, ![128, 256]⟩ : Shape).Idx → EReal)
    (b : (⟨1, ![256]⟩ : Shape).Idx → EReal) (V : (⟨2, ![256, 128]⟩ : Shape).Idx → EReal) (d : (⟨1, ![128]⟩ : Shape).Idx → EReal)
    (p : Fin R) (q : Fin 128) : node x a A B b V d (ix2 p q) = nodeAt x a A B b V d p q := rfl

/-- The aggregate: every edge's sender number wrapped into range (a negative number counts from the end), the
    senders' message rows gathered, and the gathered rows added into the rows their receivers name, starting from
    zeros.  One composite of array operations, the same on both sides of the claim. -/
def agg (gd : GatherDims ⟨2, ![50000, 128]⟩ ⟨2, ![500000, 1]⟩ ⟨2, ![500000, 128]⟩)
    (sd : ScatterDims ⟨2, ![50000, 128]⟩ ⟨2, ![500000, 1]⟩ ⟨2, ![500000, 128]⟩)
    (h0 : (⟨0, ![]⟩ : Shape).BroadcastsInDim ⟨1, ![500000]⟩ (![] : Fin 0 → Fin 1))
    (h1 : (⟨1, ![500000]⟩ : Shape).BroadcastsInDim ⟨2, ![500000, 1]⟩ (![0] : Fin 1 → Fin 2))
    (h2 : (⟨0, ![]⟩ : Shape).BroadcastsInDim ⟨2, ![50000, 128]⟩ (![] : Fin 0 → Fin 2))
    (msgs : FVec Ideal ⟨2, ![50000, 128]⟩ .f32) (snd rcv : IVec ⟨1, ![500000]⟩ 32) : FVec Ideal ⟨2, ![50000, 128]⟩ .f32 :=
  Host.scatterAdd sd (broadcastInDim ⟨2, ![50000, 128]⟩ ![] h2 (constant (F := Ideal) ⟨0, ![]⟩ .f32 0x00000000#32))
    (broadcastInDim ⟨2, ![500000, 1]⟩ ![0] h1 rcv)
    (Host.gather gd msgs (broadcastInDim ⟨2, ![500000, 1]⟩ ![0] h1
      (select (cmpi .slt snd (broadcastInDim ⟨1, ![500000]⟩ ![] h0 (constantI ⟨0, ![]⟩ 32 0#32)))
        (addi snd (broadcastInDim ⟨1, ![500000]⟩ ![] h0 (constantI ⟨0, ![]⟩ 32 50000#32))) snd)))

end Cert.Gnn

end
-- ==== Proof.RunValues.lean ====
/-
  The idealized kernel's run, with its two results named.

  @main is five segments: the host operations that lay out the first perceptron's weights, the message region, the host
  operations that aggregate the messages along the edges and lay out the update's weights, the update region, and the
  host operation that doubles the edge features.  The buffer contents at the segment boundaries are a fold from the
  launch memory, and every weakly fair execution ends with every buffer of the TensorCore at the fold's last stage:
  in particular the two result buffers, which this module states beside the unchanged arguments.
-/
import proofs.«127124_j56968446214209_1_alg».proof.Proof.Gen.KernelIdeal.Frame

set_option maxRecDepth 16384

noncomputable section

namespace Cert.Gnn.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two result buffers at the last stage
    of the fold of buffer contents and the argument arrays as launched. -/
theorem run_values : θ_run defs (onTc (τ := τ) (main (F := F))) ⟨m, fun _ => 0, ρ⟩ (fun r => ∀ c : Dev nD,
      r.2.mem ((c.tc : Thread nD τ).loc main_v23) = W5 m ρ c (Proc.devRef .tc main_v23)
      ∧ r.2.mem ((c.tc : Thread nD τ).loc main_v24) = W5 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v23 (by decide)),
       h c _ (mem_uc main_v24 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c)⟩)

end Cert.Gnn.Run

end
-- ==== Proof.SpecCongr.lean ====
/-
  The perceptron entry and the update entry depend only on the row they read, the two weight matrices and the two
  bias vectors, entry by entry: two families of arrays that agree on those entries give the same value.  This is how a
  block of rows cut out of an array is compared with the array itself: row `p` of the block is row `r` of the array.
-/
import proofs.«127124_j56968446214209_1_alg».proof.Proof.Spec

noncomputable section

namespace Cert.Gnn

open Idealize.ShloMosaic Idealize.ShloMosaic.ValueIdx

theorem mlpAt_congr {R R' : Nat} (x' : (⟨2, ![R', 128]⟩ : Shape).Idx → EReal) (x : (⟨2, ![R, 128]⟩ : Shape).Idx → EReal)
    (U' U : (⟨2, ![128, 256]⟩ : Shape).Idx → EReal) (b' b : (⟨1, ![256]⟩ : Shape).Idx → EReal)
    (V' V : (⟨2, ![256, 128]⟩ : Shape).Idx → EReal) (d' d : (⟨1, ![128]⟩ : Shape).Idx → EReal)
    (p : Fin R') (r : Fin R) (q : Fin 128)
    (hx : ∀ j : Fin 128, x' (ix2 p j) = x (ix2 r j)) (hU : ∀ (j : Fin 128) (k : Fin 256), U' (ix2 j k) = U (ix2 j k))
    (hb : ∀ k : Fin 256, b' (ix1 k) = b (ix1 k)) (hV : ∀ (k : Fin 256) (q : Fin 128), V' (ix2 k q) = V (ix2 k q))
    (hd : ∀ q : Fin 128, d' (ix1 q) = d (ix1 q)) :
    mlpAt x' U' b' V' d' p q = mlpAt x U b V d r q := by
  unfold mlpAt
  rw [hd q]
  refine congrArg (· + d (ix1 q)) (Finset.sum_congr rfl fun k _ => ?_)
  rw [hV k q, hb k]
  refine congrArg (fun s => max (s + b (ix1 k)) 0 * V (ix2 k q)) (Finset.sum_congr rfl fun j _ => ?_)
  rw [hx j, hU j k]

theorem nodeAt_congr {R R' : Nat} (x' a' : (⟨2, ![R', 128]⟩ : Shape).Idx → EReal) (x a : (⟨2, ![R, 128]⟩ : Shape).Idx → EReal)
    (A' A B' B : (⟨2, ![128, 256]⟩ : Shape).Idx → EReal) (b' b : (⟨1, ![256]⟩ : Shape).Idx → EReal)
    (V' V : (⟨2, ![256, 128]⟩ : Shape).Idx → EReal) (d' d : (⟨1, ![128]⟩ : Shape).Idx → EReal)
    (p : Fin R') (r : Fin R) (q : Fin 128)
    (hx : ∀ j : Fin 128, x' (ix2 p j) = x (ix2 r j)) (ha : ∀ j : Fin 128, a' (ix2 p j) = a (ix2 r j))
    (hA : ∀ (j : Fin 128) (k : Fin 256), A' (ix2 j k) = A (ix2 j k)) (hB : ∀ (j : Fin 128) (k : Fin 256), B' (ix2 j k) = B (ix2 j k))
    (hb : ∀ k : Fin 256, b' (ix1 k) = b (ix1 k)) (hV : ∀ (k : Fin 256) (q : Fin 128), V' (ix2 k q) = V (ix2 k q))
    (hd : ∀ q : Fin 128, d' (ix1 q) = d (ix1 q)) :
    nodeAt x' a' A' B' b' V' d' p q = nodeAt x a A B b V d r q := by
  unfold nodeAt
  rw [hd q, hx q]
  refine congrArg (fun s => x (ix2 r q) + (s + d (ix1 q))) (Finset.sum_congr rfl fun k _ => ?_)
  rw [hV k q, hb k]
  have e1 : (∑ j : Fin 128, x' (ix2 p j) * A' (ix2 j k)) = ∑ j : Fin 128, x (ix2 r j) * A (ix2 j k) :=
    Finset.sum_congr rfl fun j _ => by rw [hx j, hA j k]
  have e2 : (∑ j : Fin 128, a' (ix2 p j) * B' (ix2 j k)) = ∑ j : Fin 128, a (ix2 r j) * B (ix2 j k) :=
    Finset.sum_congr rfl fun j _ => by rw [ha j, hB j k]
  rw [e1, e2]

end Cert.Gnn

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«127124_j56968446214209_1_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.LibRowLayout.lean ====
/-
  Two layout facts about one-row arrays, each read at an entry given by its coordinates: a one-row array `[1, b]`
  spread over the rows of an `[a, b]` array, and a vector `[b]` viewed as a one-row array `[1, b]`.  They hold for
  any extents and for entries of any type.  (The companions for one-column arrays are the keepdims facts.)
-/
import Idealize.ShloMosaic.Lib.Pipeline.Value
import Idealize.ShloMosaic.Lib.ValueIdx

noncomputable section

namespace Cert.LibRowLayout

open Idealize.ShloMosaic Idealize.ShloMosaic.ValueIdx

/-- A `[1, b]` row spread over `a` rows reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[b]` vector viewed as a one-row array reads, at `(u, j)`, the vector's entry `j`: both sit at row-major position `j`. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibRowLayout

end
-- ==== Proof.Payload.lean ====
/-
  The two kernel bodies' stored values, read at an entry of the block.
-/
import proofs.«127124_j56968446214209_1_alg».proof.Proof.Gen.KernelIdeal.Skeleton
import proofs.«127124_j56968446214209_1_alg».proof.Proof.Spec
import proofs.«127124_j56968446214209_1_alg».proof.Proof.LibPlainDotFormats
import proofs.«127124_j56968446214209_1_alg».proof.Proof.LibRowLayout
import Idealize.ShloMosaic.Lib.ValueIdx
import Idealize.ShloMosaic.Lib.Pipeline.Value

noncomputable section

namespace Cert.Gnn.Payload

open Idealize.ShloMosaic Idealize.ShloMosaic.ValueIdx Cert.KernelIdeal Cert.KernelIdeal.Gen
open Cert.LibPlainDot Cert.LibRowLayout

/-- The first layer's dimension numbers, `[5000, 128] × [128, 256] → [5000, 256]`, are a plain product. -/
private theorem plain1 : Plain dot_S5000x128_S128x256_S5000x256_1_0_0_1_n_n := ⟨rfl, rfl, rfl, rfl, rfl, rfl⟩

/-- The second layer's dimension numbers, `[5000, 256] × [256, 128] → [5000, 128]`, are a plain product. -/
private theorem plain2 : Plain dot_S5000x256_S256x128_S5000x128_1_0_0_1_n_n := ⟨rfl, rfl, rfl, rfl, rfl, rfl⟩

/-- A bias vector viewed as one row and spread over the rows of a block reads, at `(p, k)`, its entry `k`. -/
private theorem bias_apply {a b : ℕ} (v : (⟨1, ![b]⟩ : Shape).Idx → EReal) (hc : (⟨1, ![b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hc) hb (ix2 p k) = v (ix1 k) :=
  (broadcastTo_1b_ab_apply _ hb p k).trans (shapeCast_b_1b_apply v hc 0 k)

/-- The rectified hidden block: pre-activation `z` plus the bias row, against zero, at `(p, k)`. -/
private theorem hid_apply (z : FVec Ideal S5000x256 .f32) (b : Vec Ideal S256 .f32) (p : Fin 5000) (k : Fin 256) :
    (truncf .bf16 (maximumf (addf z (broadcastTo S5000x256 (shapeCast S1x256 b shapeCasts_S256_S1x256) broadcasts_S1x256_S5000x256))
      (broadcast S5000x256 (Scalar.ofBits .f32 0x00000000#32))) bitsLt_bf16_f32 : FVec Ideal S5000x256 .bf16) (ix2 p k)
      = max (z (ix2 p k) + b (ix1 k)) 0 := by
  show max (z (ix2 p k) + broadcastTo S5000x256 (shapeCast S1x256 b shapeCasts_S256_S1x256) broadcasts_S1x256_S5000x256 (ix2 p k))
    (Ideal.ofBits .f32 0x00000000#32) = _
  rw [Ideal.ofBits_zero_f32]
  exact congrArg (fun t => max (z (ix2 p k) + t) 0) (bias_apply b _ _ p k)

/-- The message kernel's stored block, entry `(p, q)`: the perceptron of row `p` of the loaded block of features. -/
theorem pay0_apply (v0 : Vec Ideal S5000x128 .f32) (v2 : Vec Ideal S128x256 .bf16) (v5 : Vec Ideal S256 .f32)
    (v12 : Vec Ideal S256x128 .bf16) (v15 : Vec Ideal S128 .f32) (p : Fin 5000) (q : Fin 128) :
    k0_pay1 (F := Ideal) v0 v2 v5 v12 v15 (ix2 p q) = Cert.Gnn.mlpAt v0 v2 v5 v12 v15 p q := by
  unfold k0_pay1 Cert.Gnn.mlpAt
  rw [shapeCast_self, shapeCast_self]
  refine (addf_apply _ _ _).trans ?_
  refine congrArg₂ (· + ·) ?_ (bias_apply v15 _ _ p q)
  refine (plain2.matmul_zero_apply_formats (φ₁ := .bf16) (φ₂ := .bf16) none _ v12 p q).trans ?_
  refine Finset.sum_congr rfl fun k _ => ?_
  refine congrArg (· * v12 (ix2 k q)) ?_
  refine (hid_apply _ v5 p k).trans ?_
  exact congrArg (fun t => max (t + v5 (ix1 k)) 0)
    (plain1.matmul_zero_apply_formats (φ₁ := .bf16) (φ₂ := .bf16) none _ v2 p k)

/-- The node kernel's stored block, entry `(p, q)`: the update of row `p` from the loaded blocks of features and aggregate. -/
theorem pay1_apply (v0 v2 : Vec Ideal S5000x128 .f32) (v5 v8 : Vec Ideal S128x256 .bf16) (v12 : Vec Ideal S256 .f32)
    (v19 : Vec Ideal S256x128 .bf16) (v22 : Vec Ideal S128 .f32) (p : Fin 5000) (q : Fin 128) :
    k1_pay1 (F := Ideal) v0 v2 v5 v8 v12 v19 v22 v0 (ix2 p q) = Cert.Gnn.nodeAt v0 v2 v5 v8 v12 v19 v22 p q := by
  unfold k1_pay1 Cert.Gnn.nodeAt
  rw [shapeCast_self, shapeCast_self, shapeCast_self, shapeCast_self]
  refine (addf_apply _ _ _).trans ?_
  refine congrArg (v0 (ix2 p q) + ·) ?_
  refine (addf_apply _ _ _).trans ?_
  refine congrArg₂ (· + ·) ?_ (bias_apply v22 _ _ p q)
  refine (plain2.matmul_zero_apply_formats (φ₁ := .bf16) (φ₂ := .bf16) none _ v19 p q).trans ?_
  refine Finset.sum_congr rfl fun k _ => ?_
  refine congrArg (· * v19 (ix2 k q)) ?_
  refine (hid_apply _ v12 p k).trans ?_
  refine congrArg (fun t => max (t + v12 (ix1 k)) 0) ?_
  refine (addf_apply _ _ _).trans ?_
  exact congrArg₂ (· + ·)
    (plain1.matmul_zero_apply_formats (φ₁ := .bf16) (φ₂ := .bf16) none _ v5 p k)
    (plain1.matmul_zero_apply_formats (φ₁ := .bf16) (φ₂ := .bf16) none _ v8 p k)

end Cert.Gnn.Payload

end
-- ==== Proof.Region0.lean ====
/-
  The message region, read as a whole array.

  The region runs the message kernel on ten blocks of 5000 consecutive node rows: at grid point t the features' window and
  the output's window both sit on rows 5000·t … 5000·t + 4999, while the two weight matrices and the two bias vectors are
  each one block, the whole array.  The body stores the perceptron of the loaded rows, so what point t writes back is
  block t of the perceptron of the whole features array; the ten blocks tile the 50000 rows, so after the region the
  output array IS that perceptron, entry by entry.
-/
import proofs.«127124_j56968446214209_1_alg».proof.Proof.Gen.KernelIdeal.Frame
import proofs.«127124_j56968446214209_1_alg».proof.Proof.Spec
import proofs.«127124_j56968446214209_1_alg».proof.Proof.SpecCongr
import proofs.«127124_j56968446214209_1_alg».proof.Proof.Payload
import Idealize.ShloMosaic.Lib.Pipeline.Value
import Idealize.ShloMosaic.Lib.ValueIdx

set_option maxRecDepth 16384

noncomputable section

namespace Cert.Gnn.Region0

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The perceptron of the whole features array, from the arrays as the region finds them. -/
abbrev G (c : Dev nD) : S50000x128.Idx → EReal :=
  Cert.Gnn.mlp (V c main_arg0) (V c main_v1) (V c main_arg5) (V c main_v3) (V c main_arg7)

/-- The printed index maps over the grid: the features' block and the output's block are block t of the rows, every
    other window's block is at the origin. -/
theorem idx_facts : ∀ t : Fin cfg0.N, win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0 :=
  (by decide +kernel : ∀ t : Fin grid0.N, _)

theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x256) hz2, View.ld_unit_zero (S := S256x128) hz2,
    View.ld_unit_zero (S := S256) hz1, View.ld_unit_zero (S := S128) hz1]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = G V c (((cfg0.win 5).blk t).view.emb (ix2 p q))
  refine (Cert.Gnn.Payload.pay0_apply (iblk0 V c 0 t) (iblk0 V c 1 t) (iblk0 V c 2 t) (iblk0 V c 3 t) (iblk0 V c 4 t) p q).trans ?_
  obtain ⟨e0, e1, e2, e3, e4, e5, e6, e7, e8, e9⟩ := idx_facts t
  have ht : t.val < 10 := Nat.lt_of_lt_of_eq t.isLt N_0
  have hp : p.val < 5000 := p.isLt
  have hr : t.val * 5000 + p.val < 50000 := by omega
  have hemb : ((cfg0.win 5).blk t).view.emb (ix2 p q) = ix2 (⟨t.val * 5000 + p.val, hr⟩ : Fin 50000) q := by
    funext a; apply Fin.ext
    match a with
    | ⟨0, _⟩ => show win0_5.index t (0 : Fin 2) * 5000 + 1 * p.val = t.val * 5000 + p.val; rw [e2]; omega
    | ⟨1, _⟩ => show win0_5.index t (1 : Fin 2) * 128 + 1 * q.val = q.val; rw [e3]; omega
  rw [hemb]
  show Cert.Gnn.mlpAt (iblk0 V c 0 t) (iblk0 V c 1 t) (iblk0 V c 2 t) (iblk0 V c 3 t) (iblk0 V c 4 t) p q
    = Cert.Gnn.mlpAt (V c main_arg0) (V c main_v1) (V c main_arg5) (V c main_v3) (V c main_arg7) (⟨t.val * 5000 + p.val, hr⟩ : Fin 50000) q
  refine Cert.Gnn.mlpAt_congr (iblk0 V c 0 t) (V c main_arg0) (iblk0 V c 1 t) (V c main_v1) (iblk0 V c 2 t) (V c main_arg5)
    (iblk0 V c 3 t) (V c main_v3) (iblk0 V c 4 t) (V c main_arg7) p (⟨t.val * 5000 + p.val, hr⟩ : Fin 50000) q ?_ ?_ ?_ ?_ ?_
  · intro j
    show V c main_arg0 (((cfg0.win 0).blk t).view.emb (ix2 p j)) = V c main_arg0 (ix2 (⟨t.val * 5000 + p.val, hr⟩ : Fin 50000) j)
    refine congrArg (V c main_arg0) ?_
    funext a; apply Fin.ext
    match a with
    | ⟨0, _⟩ => show win0_0.index t (0 : Fin 2) * 5000 + 1 * p.val = t.val * 5000 + p.val; rw [e0]; omega
    | ⟨1, _⟩ => show win0_0.index t (1 : Fin 2) * 128 + 1 * j.val = j.val; rw [e1]; omega
  · intro j k
    show V c main_v1 (((cfg0.win 1).blk t).view.emb (ix2 j k)) = V c main_v1 (ix2 j k)
    refine congrArg (V c main_v1) ?_
    funext a; apply Fin.ext
    match a with
    | ⟨0, _⟩ => show win0_1.index t (0 : Fin 2) * 128 + 1 * j.val = j.val; rw [e4]; omega
    | ⟨1, _⟩ => show win0_1.index t (1 : Fin 2) * 256 + 1 * k.val = k.val; rw [e5]; omega
  · intro k
    show V c main_arg5 (((cfg0.win 2).blk t).view.emb (ix1 k)) = V c main_arg5 (ix1 k)
    refine congrArg (V c main_arg5) ?_
    funext a; apply Fin.ext
    match a with
    | ⟨0, _⟩ => show win0_2.index t (0 : Fin 1) * 256 + 1 * k.val = k.val; rw [e6]; omega
  · intro k q'
    show V c main_v3 (((cfg0.win 3).blk t).view.emb (ix2 k q')) = V c main_v3 (ix2 k q')
    refine congrArg (V c main_v3) ?_
    funext a; apply Fin.ext
    match a with
    | ⟨0, _⟩ => show win0_3.index t (0 : Fin 2) * 256 + 1 * k.val = k.val; rw [e7]; omega
    | ⟨1, _⟩ => show win0_3.index t (1 : Fin 2) * 128 + 1 * q'.val = q'.val; rw [e8]; omega
  · intro q'
    show V c main_arg7 (((cfg0.win 4).blk t).view.emb (ix1 q')) = V c main_arg7 (ix1 q')
    refine congrArg (V c main_arg7) ?_
    funext a; apply Fin.ext
    match a with
    | ⟨0, _⟩ => show win0_4.index t (0 : Fin 1) * 128 + 1 * q'.val = q'.val; rw [e9]; omega

/-- An index of the array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v4).slice (win0_5.rect t)).set ↔ _
  rw [View.set_slice_whole, Rect.mem_set_unit]
  exact Iff.rfl

/-- Every row lies in the block of the point its number divided by 5000 names. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hlt : (i 0).val / 5000 < cfg0.N := Nat.lt_of_lt_of_eq (by omega) N_0.symm
  obtain ⟨-, -, e2, e3, -⟩ := idx_facts ⟨(i 0).val / 5000, hlt⟩
  refine ⟨⟨(i 0).val / 5000, hlt⟩, flush0_5 _, ?_⟩
  rw [mem_blk]
  intro a
  match a with
  | ⟨0, _⟩ =>
    show win0_5.index ⟨(i 0).val / 5000, hlt⟩ (0 : Fin 2) * 5000 ≤ (i 0).val
      ∧ (i 0).val < win0_5.index ⟨(i 0).val / 5000, hlt⟩ (0 : Fin 2) * 5000 + 5000
    rw [e2]
    show (i 0).val / 5000 * 5000 ≤ (i 0).val ∧ (i 0).val < (i 0).val / 5000 * 5000 + 5000
    omega
  | ⟨1, _⟩ =>
    show win0_5.index ⟨(i 0).val / 5000, hlt⟩ (1 : Fin 2) * 128 ≤ (i 1).val
      ∧ (i 1).val < win0_5.index ⟨(i 0).val / 5000, hlt⟩ (1 : Fin 2) * 128 + 128
    rw [e3]
    omega

/-- After the region the output array is the perceptron of the features array, entry by entry. -/
theorem final (c : Dev nD) : (dat0 V c).arrAt 5 cfg0.N = G V c :=
  (dat0 V c).arrAt_eq_of_cover 5 (G V c) (fun t _ => flushed_eq V c t) cover

end Cert.Gnn.Region0

end
-- ==== Proof.Region1.lean ====
/-
  The node-update region, read as a whole array.

  The region runs the update kernel on ten blocks of 5000 consecutive node rows: at grid point t the features' window, the
  aggregate's window and the output's window all sit on rows 5000·t … 5000·t + 4999; the two halves of the first layer's
  matrix, the second layer's matrix and the two bias vectors are each one block, the whole array.  The body stores the
  update of the loaded rows, so what point t writes back is block t of the update of the whole arrays; the ten blocks
  tile the 50000 rows, so after the region the output array IS that update, entry by entry.
-/
import proofs.«127124_j56968446214209_1_alg».proof.Proof.Gen.KernelIdeal.Frame
import proofs.«127124_j56968446214209_1_alg».proof.Proof.Spec
import proofs.«127124_j56968446214209_1_alg».proof.Proof.SpecCongr
import proofs.«127124_j56968446214209_1_alg».proof.Proof.Payload
import Idealize.ShloMosaic.Lib.Pipeline.Value
import Idealize.ShloMosaic.Lib.ValueIdx

set_option maxRecDepth 16384

noncomputable section

namespace Cert.Gnn.Region1

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The update of the whole features and aggregate arrays, from the arrays as the region finds them. -/
abbrev G (c : Dev nD) : S50000x128.Idx → EReal :=
  Cert.Gnn.node (V c main_arg0) (V c main_v14) (V c main_v17) (V c main_v20) (V c main_arg9) (V c main_v22) (V c main_arg11)

/-- The printed index maps over the grid: the features', the aggregate's and the output's blocks are block t of the
    rows, every other window's block is at the origin. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_7.index t (0 : Fin 2) = t.val ∧ win1_7.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0 :=
  (by decide +kernel : ∀ t : Fin grid1.N, _)

/-- What point `t` writes back is block `t` of the update of the whole arrays. -/
theorem flushed_eq (c : Dev nD) (t : Fin cfg1.N) :
    (dat1 V c).flushed 7 t = ((cfg1.win 7).blk t).view.read (Elt Ideal) (G V c) := by
  show (cfg1.win 7).cut (grid1.coords t) ((dat1 V c).after 7 t) = _
  rw [after1_7]
  unfold out1_7
  rw [View.canon_unit_zero hz2]
  simp only [View.ld_unit_zero (S := S5000x128) hz2, View.ld_unit_zero (S := S128x256) hz2, View.ld_unit_zero (S := S256x128) hz2,
    View.ld_unit_zero (S := S256) hz1, View.ld_unit_zero (S := S128) hz1]
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (iblk1 V c 5 t) (iblk1 V c 6 t)
      (iblk1 V c 0 t) (ix2 p q)
    = G V c (((cfg1.win 7).blk t).view.emb (ix2 p q))
  refine (Cert.Gnn.Payload.pay1_apply (iblk1 V c 0 t) (iblk1 V c 1 t) (iblk1 V c 2 t) (iblk1 V c 3 t) (iblk1 V c 4 t) (iblk1 V c 5 t)
    (iblk1 V c 6 t) p q).trans ?_
  obtain ⟨e0, e1, e2, e3, e4, e5, e6, e7, e8, e9, e10, e11, e12, e13⟩ := idx_facts t
  have ht : t.val < 10 := Nat.lt_of_lt_of_eq t.isLt N_1
  have hp : p.val < 5000 := p.isLt
  have hr : t.val * 5000 + p.val < 50000 := by omega
  have hemb : ((cfg1.win 7).blk t).view.emb (ix2 p q) = ix2 (⟨t.val * 5000 + p.val, hr⟩ : Fin 50000) q := by
    funext a; apply Fin.ext
    match a with
    | ⟨0, _⟩ => show win1_7.index t (0 : Fin 2) * 5000 + 1 * p.val = t.val * 5000 + p.val; rw [e4]; omega
    | ⟨1, _⟩ => show win1_7.index t (1 : Fin 2) * 128 + 1 * q.val = q.val; rw [e5]; omega
  rw [hemb]
  show Cert.Gnn.nodeAt (iblk1 V c 0 t) (iblk1 V c 1 t) (iblk1 V c 2 t) (iblk1 V c 3 t) (iblk1 V c 4 t) (iblk1 V c 5 t) (iblk1 V c 6 t) p q
    = Cert.Gnn.nodeAt (V c main_arg0) (V c main_v14) (V c main_v17) (V c main_v20) (V c main_arg9) (V c main_v22) (V c main_arg11)
        (⟨t.val * 5000 + p.val, hr⟩ : Fin 50000) q
  refine Cert.Gnn.nodeAt_congr (iblk1 V c 0 t) (iblk1 V c 1 t) (V c main_arg0) (V c main_v14) (iblk1 V c 2 t) (V c main_v17)
    (iblk1 V c 3 t) (V c main_v20) (iblk1 V c 4 t) (V c main_arg9) (iblk1 V c 5 t) (V c main_v22) (iblk1 V c 6 t) (V c main_arg11)
    p (⟨t.val * 5000 + p.val, hr⟩ : Fin 50000) q ?_ ?_ ?_ ?_ ?_ ?_ ?_
  · intro j
    show V c main_arg0 (((cfg1.win 0).blk t).view.emb (ix2 p j)) = V c main_arg0 (ix2 (⟨t.val * 5000 + p.val, hr⟩ : Fin 50000) j)
    refine congrArg (V c main_arg0) ?_
    funext a; apply Fin.ext
    match a with
    | ⟨0, _⟩ => show win1_0.index t (0 : Fin 2) * 5000 + 1 * p.val = t.val * 5000 + p.val; rw [e0]; omega
    | ⟨1, _⟩ => show win1_0.index t (1 : Fin 2) * 128 + 1 * j.val = j.val; rw [e1]; omega
  · intro j
    show V c main_v14 (((cfg1.win 1).blk t).view.emb (ix2 p j)) = V c main_v14 (ix2 (⟨t.val * 5000 + p.val, hr⟩ : Fin 50000) j)
    refine congrArg (V c main_v14) ?_
    funext a; apply Fin.ext
    match a with
    | ⟨0, _⟩ => show win1_1.index t (0 : Fin 2) * 5000 + 1 * p.val = t.val * 5000 + p.val; rw [e2]; omega
    | ⟨1, _⟩ => show win1_1.index t (1 : Fin 2) * 128 + 1 * j.val = j.val; rw [e3]; omega
  · intro j k
    show V c main_v17 (((cfg1.win 2).blk t).view.emb (ix2 j k)) = V c main_v17 (ix2 j k)
    refine congrArg (V c main_v17) ?_
    funext a; apply Fin.ext
    match a with
    | ⟨0, _⟩ => show win1_2.index t (0 : Fin 2) * 128 + 1 * j.val = j.val; rw [e6]; omega
    | ⟨1, _⟩ => show win1_2.index t (1 : Fin 2) * 256 + 1 * k.val = k.val; rw [e7]; omega
  · intro j k
    show V c main_v20 (((cfg1.win 3).blk t).view.emb (ix2 j k)) = V c main_v20 (ix2 j k)
    refine congrArg (V c main_v20) ?_
    funext a; apply Fin.ext
    match a with
    | ⟨0, _⟩ => show win1_3.index t (0 : Fin 2) * 128 + 1 * j.val = j.val; rw [e8]; omega
    | ⟨1, _⟩ => show win1_3.index t (1 : Fin 2) * 256 + 1 * k.val = k.val; rw [e9]; omega
  · intro k
    show V c main_arg9 (((cfg1.win 4).blk t).view.emb (ix1 k)) = V c main_arg9 (ix1 k)
    refine congrArg (V c main_arg9) ?_
    funext a; apply Fin.ext
    match a with
    | ⟨0, _⟩ => show win1_4.index t (0 : Fin 1) * 256 + 1 * k.val = k.val; rw [e10]; omega
  · intro k q'
    show V c main_v22 (((cfg1.win 5).blk t).view.emb (ix2 k q')) = V c main_v22 (ix2 k q')
    refine congrArg (V c main_v22) ?_
    funext a; apply Fin.ext
    match a with
    | ⟨0, _⟩ => show win1_5.index t (0 : Fin 2) * 256 + 1 * k.val = k.val; rw [e11]; omega
    | ⟨1, _⟩ => show win1_5.index t (1 : Fin 2) * 128 + 1 * q'.val = q'.val; rw [e12]; omega
  · intro q'
    show V c main_arg11 (((cfg1.win 6).blk t).view.emb (ix1 q')) = V c main_arg11 (ix1 q')
    refine congrArg (V c main_arg11) ?_
    funext a; apply Fin.ext
    match a with
    | ⟨0, _⟩ => show win1_6.index t (0 : Fin 1) * 128 + 1 * q'.val = q'.val; rw [e13]; omega

/-- An index of the array is in point `t`'s block iff each coordinate is in the block's range on its axis. -/
theorem mem_blk (t : Fin cfg1.N) (i : S50000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v23).slice (win1_7.rect t)).set ↔ _
  rw [View.set_slice_whole, Rect.mem_set_unit]
  exact Iff.rfl

/-- Every row lies in the block of the point its number divided by 5000 names. -/
theorem cover (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hlt : (i 0).val / 5000 < cfg1.N := Nat.lt_of_lt_of_eq (by omega) N_1.symm
  obtain ⟨-, -, -, -, e4, e5, -⟩ := idx_facts ⟨(i 0).val / 5000, hlt⟩
  refine ⟨⟨(i 0).val / 5000, hlt⟩, flush1_7 _, ?_⟩
  rw [mem_blk]
  intro a
  match a with
  | ⟨0, _⟩ =>
    show win1_7.index ⟨(i 0).val / 5000, hlt⟩ (0 : Fin 2) * 5000 ≤ (i 0).val
      ∧ (i 0).val < win1_7.index ⟨(i 0).val / 5000, hlt⟩ (0 : Fin 2) * 5000 + 5000
    rw [e4]
    show (i 0).val / 5000 * 5000 ≤ (i 0).val ∧ (i 0).val < (i 0).val / 5000 * 5000 + 5000
    omega
  | ⟨1, _⟩ =>
    show win1_7.index ⟨(i 0).val / 5000, hlt⟩ (1 : Fin 2) * 128 ≤ (i 1).val
      ∧ (i 1).val < win1_7.index ⟨(i 0).val / 5000, hlt⟩ (1 : Fin 2) * 128 + 128
    rw [e5]
    omega

/-- After the region the output array is the update of the features and aggregate arrays, entry by entry. -/
theorem final (c : Dev nD) : (dat1 V c).arrAt 7 cfg1.N = G V c :=
  (dat1 V c).arrAt_eq_of_cover 7 (G V c) (fun t _ => flushed_eq V c t) cover

end Cert.Gnn.Region1

end
-- ==== Proof.LibKeeps.lean ====
/-
  A buffer that no operation of a stretch writes keeps its contents across the stretch.

  The contents after a list of host operations are a fold: each operation replaces the one buffer it writes. So for a
  literal list and a literal buffer the statement "the fold at this buffer is what was there" comes down to one
  inequality of buffer names per operation, each decided by evaluation. `keeps_host ops` closes a goal
  `after ops V (devRef b) = V (devRef b)` that way, `ops` being the name of the list's definition.
-/
import Idealize.ShloMosaic.Lib.StableHlo.Run

open Idealize.ShloMosaic in
/-- Closes `StableHlo.after ops V (Proc.devRef .tc b) = V (Proc.devRef .tc b)` for the literal list of host operations
    named `ops` and a literal buffer `b` none of them writes. -/
macro "keeps_host " ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))
-- ==== Proof.Walk.lean ====
/-
  The fold of buffer contents through @main, read back to the launch memory.

  Before the message region the host lays out the first perceptron's two weight matrices (a transpose each; the change of
  float format is the identity on extended reals).  The region leaves its output array at the perceptron of the features.
  Between the regions the host aggregates the messages along the edges and lays out the update's matrices: the two halves
  of the first layer (a slice of the columns, then a transpose) and the second layer (a transpose).  The update region
  leaves its output at the update of the features and the aggregate, and the last host operation adds the edge features
  to themselves.  No operation and no region writes an argument array, so each is read back unchanged at every stage.
-/
import proofs.«127124_j56968446214209_1_alg».proof.Proof.Gen.KernelIdeal.Frame
import proofs.«127124_j56968446214209_1_alg».proof.Proof.Spec
import proofs.«127124_j56968446214209_1_alg».proof.Proof.Region0
import proofs.«127124_j56968446214209_1_alg».proof.Proof.Region1
import proofs.«127124_j56968446214209_1_alg».proof.Proof.LibKeeps
import Idealize.ShloMosaic.Lib.StableHlo.Run

set_option maxRecDepth 16384

noncomputable section

namespace Cert.Gnn.Walk

open Idealize.ShloMosaic Idealize.ShloMosaic.TcCoe Idealize.ShloMosaic.ValueIdx Idealize.SL.Sem Idealize.ShloMosaic.StableHlo
open Cert.KernelIdeal Cert.KernelIdeal.Gen
open Idealize.ShloMosaic.Pipeline (Dat Cfg Window)

variable (m : (ℓ : Loc nD τ sig) → Buf (Elt Ideal) ℓ) (ρ : Dev nD → PrngReg)

/-! ## Before the message region -/

theorem W1_arg0 (c : Dev nD) : W1 m ρ c (Proc.devRef .tc main_arg0) = W0 m ρ c (Proc.devRef .tc main_arg0) := by
  show StableHlo.after hostOps0 (W0 m ρ c) (Proc.devRef .tc main_arg0) = W0 m ρ c (Proc.devRef .tc main_arg0)
  keeps_host hostOps0
theorem W1_arg1 (c : Dev nD) : W1 m ρ c (Proc.devRef .tc main_arg1) = W0 m ρ c (Proc.devRef .tc main_arg1) := by
  show StableHlo.after hostOps0 (W0 m ρ c) (Proc.devRef .tc main_arg1) = W0 m ρ c (Proc.devRef .tc main_arg1)
  keeps_host hostOps0
theorem W1_arg2 (c : Dev nD) : W1 m ρ c (Proc.devRef .tc main_arg2) = W0 m ρ c (Proc.devRef .tc main_arg2) := by
  show StableHlo.after hostOps0 (W0 m ρ c) (Proc.devRef .tc main_arg2) = W0 m ρ c (Proc.devRef .tc main_arg2)
  keeps_host hostOps0
theorem W1_arg3 (c : Dev nD) : W1 m ρ c (Proc.devRef .tc main_arg3) = W0 m ρ c (Proc.devRef .tc main_arg3) := by
  show StableHlo.after hostOps0 (W0 m ρ c) (Proc.devRef .tc main_arg3) = W0 m ρ c (Proc.devRef .tc main_arg3)
  keeps_host hostOps0
theorem W1_arg5 (c : Dev nD) : W1 m ρ c (Proc.devRef .tc main_arg5) = W0 m ρ c (Proc.devRef .tc main_arg5) := by
  show StableHlo.after hostOps0 (W0 m ρ c) (Proc.devRef .tc main_arg5) = W0 m ρ c (Proc.devRef .tc main_arg5)
  keeps_host hostOps0
theorem W1_arg7 (c : Dev nD) : W1 m ρ c (Proc.devRef .tc main_arg7) = W0 m ρ c (Proc.devRef .tc main_arg7) := by
  show StableHlo.after hostOps0 (W0 m ρ c) (Proc.devRef .tc main_arg7) = W0 m ρ c (Proc.devRef .tc main_arg7)
  keeps_host hostOps0
theorem W1_arg8 (c : Dev nD) : W1 m ρ c (Proc.devRef .tc main_arg8) = W0 m ρ c (Proc.devRef .tc main_arg8) := by
  show StableHlo.after hostOps0 (W0 m ρ c) (Proc.devRef .tc main_arg8) = W0 m ρ c (Proc.devRef .tc main_arg8)
  keeps_host hostOps0
theorem W1_arg9 (c : Dev nD) : W1 m ρ c (Proc.devRef .tc main_arg9) = W0 m ρ c (Proc.devRef .tc main_arg9) := by
  show StableHlo.after hostOps0 (W0 m ρ c) (Proc.devRef .tc main_arg9) = W0 m ρ c (Proc.devRef .tc main_arg9)
  keeps_host hostOps0
theorem W1_arg10 (c : Dev nD) : W1 m ρ c (Proc.devRef .tc main_arg10) = W0 m ρ c (Proc.devRef .tc main_arg10) := by
  show StableHlo.after hostOps0 (W0 m ρ c) (Proc.devRef .tc main_arg10) = W0 m ρ c (Proc.devRef .tc main_arg10)
  keeps_host hostOps0
theorem W1_arg11 (c : Dev nD) : W1 m ρ c (Proc.devRef .tc main_arg11) = W0 m ρ c (Proc.devRef .tc main_arg11) := by
  show StableHlo.after hostOps0 (W0 m ρ c) (Proc.devRef .tc main_arg11) = W0 m ρ c (Proc.devRef .tc main_arg11)
  keeps_host hostOps0

/-- The first layer's matrix as the region finds it: the transpose of the argument. -/
theorem W1_v1 (c : Dev nD) : (W1 m ρ c (Proc.devRef .tc main_v1) : S128x256.Idx → EReal)
    = transpose S128x256 [1, 0] (m ((c : Thread nD τ).loc main_arg4)) Facts₀.transposes_S256x128_S128x256_1_0 := by
  show StableHlo.after hostOps0 (W0 m ρ c) (Proc.devRef .tc main_v1) = _
  dsimp only [hostOps0]
  after_results
  rfl

/-- The second layer's matrix as the region finds it: the transpose of the argument. -/
theorem W1_v3 (c : Dev nD) : (W1 m ρ c (Proc.devRef .tc main_v3) : S256x128.Idx → EReal)
    = transpose S256x128 [1, 0] (m ((c : Thread nD τ).loc main_arg6)) Facts₀.transposes_S128x256_S256x128_1_0 := by
  show StableHlo.after hostOps0 (W0 m ρ c) (Proc.devRef .tc main_v3) = _
  dsimp only [hostOps0]
  after_results
  rfl

/-! ## After the message region -/

/-- The region's output array: the perceptron of the features, over the transposed weight arguments. -/
theorem W2_v4 (c : Dev nD) : (W2 m ρ c (Proc.devRef .tc main_v4) : S50000x128.Idx → EReal) = (Cert.Gnn.mlp (m ((c : Thread nD τ).loc main_arg0)) (transpose S128x256 [1, 0] (m ((c : Thread nD τ).loc main_arg4) : S256x128.Idx → EReal) Facts₀.transposes_S256x128_S128x256_1_0) (m ((c : Thread nD τ).loc main_arg5)) (transpose S256x128 [1, 0] (m ((c : Thread nD τ).loc main_arg6) : S128x256.Idx → EReal) Facts₀.transposes_S128x256_S256x128_1_0) (m ((c : Thread nD τ).loc main_arg7))) := by
  refine ((W2_arr m ρ c 5).trans (Cert.Gnn.Region0.final (V1 m ρ) c)).trans ?_
  show Cert.Gnn.mlp (W1 m ρ c (Proc.devRef .tc main_arg0)) (W1 m ρ c (Proc.devRef .tc main_v1)) (W1 m ρ c (Proc.devRef .tc main_arg5)) (W1 m ρ c (Proc.devRef .tc main_v3)) (W1 m ρ c (Proc.devRef .tc main_arg7)) = _
  rw [W1_arg0, W1_v1, W1_arg5, W1_v3, W1_arg7]

/-- The features are an input window's array: the region leaves it as it found it. -/
theorem W2_arg0 (c : Dev nD) : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))
theorem W2_arg1 (c : Dev nD) : W2 m ρ c (Proc.devRef .tc main_arg1) = W1 m ρ c (Proc.devRef .tc main_arg1) := W2_of_ne m ρ c main_arg1 (by decide)
theorem W2_arg2 (c : Dev nD) : W2 m ρ c (Proc.devRef .tc main_arg2) = W1 m ρ c (Proc.devRef .tc main_arg2) := W2_of_ne m ρ c main_arg2 (by decide)
theorem W2_arg3 (c : Dev nD) : W2 m ρ c (Proc.devRef .tc main_arg3) = W1 m ρ c (Proc.devRef .tc main_arg3) := W2_of_ne m ρ c main_arg3 (by decide)
theorem W2_arg8 (c : Dev nD) : W2 m ρ c (Proc.devRef .tc main_arg8) = W1 m ρ c (Proc.devRef .tc main_arg8) := W2_of_ne m ρ c main_arg8 (by decide)
theorem W2_arg9 (c : Dev nD) : W2 m ρ c (Proc.devRef .tc main_arg9) = W1 m ρ c (Proc.devRef .tc main_arg9) := W2_of_ne m ρ c main_arg9 (by decide)
theorem W2_arg10 (c : Dev nD) : W2 m ρ c (Proc.devRef .tc main_arg10) = W1 m ρ c (Proc.devRef .tc main_arg10) := W2_of_ne m ρ c main_arg10 (by decide)
theorem W2_arg11 (c : Dev nD) : W2 m ρ c (Proc.devRef .tc main_arg11) = W1 m ρ c (Proc.devRef .tc main_arg11) := W2_of_ne m ρ c main_arg11 (by decide)

/-! ## Before the update region -/

theorem W3_arg0 (c : Dev nD) : W3 m ρ c (Proc.devRef .tc main_arg0) = W2 m ρ c (Proc.devRef .tc main_arg0) := by
  show StableHlo.after hostOps1 (W2 m ρ c) (Proc.devRef .tc main_arg0) = W2 m ρ c (Proc.devRef .tc main_arg0)
  keeps_host hostOps1
theorem W3_arg1 (c : Dev nD) : W3 m ρ c (Proc.devRef .tc main_arg1) = W2 m ρ c (Proc.devRef .tc main_arg1) := by
  show StableHlo.after hostOps1 (W2 m ρ c) (Proc.devRef .tc main_arg1) = W2 m ρ c (Proc.devRef .tc main_arg1)
  keeps_host hostOps1
theorem W3_arg9 (c : Dev nD) : W3 m ρ c (Proc.devRef .tc main_arg9) = W2 m ρ c (Proc.devRef .tc main_arg9) := by
  show StableHlo.after hostOps1 (W2 m ρ c) (Proc.devRef .tc main_arg9) = W2 m ρ c (Proc.devRef .tc main_arg9)
  keeps_host hostOps1
theorem W3_arg11 (c : Dev nD) : W3 m ρ c (Proc.devRef .tc main_arg11) = W2 m ρ c (Proc.devRef .tc main_arg11) := by
  show StableHlo.after hostOps1 (W2 m ρ c) (Proc.devRef .tc main_arg11) = W2 m ρ c (Proc.devRef .tc main_arg11)
  keeps_host hostOps1

/-- The aggregate as the update region finds it: the composite of the message array and the two edge lists. -/
theorem W3_v14 (c : Dev nD) : (W3 m ρ c (Proc.devRef .tc main_v14) : S50000x128.Idx → EReal)
    = Cert.Gnn.agg gather_S50000x128_S500000x1_S500000x128_1_0_n_n_0_1_1128 scatter_S50000x128_S500000x1_S500000x128_1_0_0_1
      Facts₀.bcast_S_S500000 Facts₀.bcast_S500000_S500000x1_0 Facts₀.bcast_S_S50000x128 (W2 m ρ c (Proc.devRef .tc main_v4)) (W2 m ρ c (Proc.devRef .tc main_arg2)) (W2 m ρ c (Proc.devRef .tc main_arg3)) := by
  show StableHlo.after hostOps1 (W2 m ρ c) (Proc.devRef .tc main_v14) = _
  dsimp only [hostOps1]
  after_results
  rfl

/-- The half of the first layer that meets the features: columns 0 … 127 of the argument, transposed. -/
theorem W3_v17 (c : Dev nD) : (W3 m ρ c (Proc.devRef .tc main_v17) : S128x256.Idx → EReal) = (transpose S128x256 [1, 0] ((extractStridedSlice S256x128 ![0, 0] (W2 m ρ c (Proc.devRef .tc main_arg8) : S256x256.Idx → EReal) Facts₀.slices_S256x256_S256x128_0_0)) Facts₀.transposes_S256x128_S128x256_1_0) := by
  show StableHlo.after hostOps1 (W2 m ρ c) (Proc.devRef .tc main_v17) = _
  dsimp only [hostOps1]
  after_results
  rfl

/-- The half that meets the aggregate: columns 128 … 255 of the argument, transposed. -/
theorem W3_v20 (c : Dev nD) : (W3 m ρ c (Proc.devRef .tc main_v20) : S128x256.Idx → EReal) = (transpose S128x256 [1, 0] ((extractStridedSlice S256x128 ![0, 128] (W2 m ρ c (Proc.devRef .tc main_arg8) : S256x256.Idx → EReal) Facts₀.slices_S256x256_S256x128_0_128)) Facts₀.transposes_S256x128_S128x256_1_0) := by
  show StableHlo.after hostOps1 (W2 m ρ c) (Proc.devRef .tc main_v20) = _
  dsimp only [hostOps1]
  after_results
  rfl

/-- The second layer's matrix: the transpose of the argument. -/
theorem W3_v22 (c : Dev nD) : (W3 m ρ c (Proc.devRef .tc main_v22) : S256x128.Idx → EReal) = (transpose S256x128 [1, 0] (W2 m ρ c (Proc.devRef .tc main_arg10) : S128x256.Idx → EReal) Facts₀.transposes_S128x256_S256x128_1_0) := by
  show StableHlo.after hostOps1 (W2 m ρ c) (Proc.devRef .tc main_v22) = _
  dsimp only [hostOps1]
  after_results
  rfl

/-! ## After the update region, and the last host operation -/

theorem W4_v23 (c : Dev nD) : (W4 m ρ c (Proc.devRef .tc main_v23) : S50000x128.Idx → EReal) = Cert.Gnn.Region1.G (V3 m ρ) c :=
  (W4_arr m ρ c 7).trans (Cert.Gnn.Region1.final (V3 m ρ) c)
theorem W4_arg1 (c : Dev nD) : W4 m ρ c (Proc.devRef .tc main_arg1) = W3 m ρ c (Proc.devRef .tc main_arg1) := W4_of_ne m ρ c main_arg1 (by decide)

theorem W5_v23 (c : Dev nD) : W5 m ρ c (Proc.devRef .tc main_v23) = W4 m ρ c (Proc.devRef .tc main_v23) := by
  show StableHlo.after hostOps2 (W4 m ρ c) (Proc.devRef .tc main_v23) = W4 m ρ c (Proc.devRef .tc main_v23)
  keeps_host hostOps2

theorem W5_v24 (c : Dev nD) : (W5 m ρ c (Proc.devRef .tc main_v24) : S500000x16.Idx → EReal) = addf (F := Ideal) (s := S500000x16) (φ := .f32) (W4 m ρ c (Proc.devRef .tc main_arg1)) (W4 m ρ c (Proc.devRef .tc main_arg1)) := by
  show StableHlo.after hostOps2 (W4 m ρ c) (Proc.devRef .tc main_v24) = _
  dsimp only [hostOps2]
  after_results

/-! ## The two results as functions of the launch memory -/

/-- The new node features: the update of the features and the aggregate of their messages. -/
theorem result_nodes (c : Dev nD) : (W5 m ρ c (Proc.devRef .tc main_v23) : S50000x128.Idx → EReal)
    = Cert.Gnn.node (m ((c : Thread nD τ).loc main_arg0))
        (Cert.Gnn.agg gather_S50000x128_S500000x1_S500000x128_1_0_n_n_0_1_1128 scatter_S50000x128_S500000x1_S500000x128_1_0_0_1
      Facts₀.bcast_S_S500000 Facts₀.bcast_S500000_S500000x1_0 Facts₀.bcast_S_S50000x128 (Cert.Gnn.mlp (m ((c : Thread nD τ).loc main_arg0)) (transpose S128x256 [1, 0] (m ((c : Thread nD τ).loc main_arg4) : S256x128.Idx → EReal) Facts₀.transposes_S256x128_S128x256_1_0) (m ((c : Thread nD τ).loc main_arg5)) (transpose S256x128 [1, 0] (m ((c : Thread nD τ).loc main_arg6) : S128x256.Idx → EReal) Facts₀.transposes_S128x256_S256x128_1_0) (m ((c : Thread nD τ).loc main_arg7))) (m ((c : Thread nD τ).loc main_arg2)) (m ((c : Thread nD τ).loc main_arg3)))
        (transpose S128x256 [1, 0] ((extractStridedSlice S256x128 ![0, 0] (m ((c : Thread nD τ).loc main_arg8) : S256x256.Idx → EReal) Facts₀.slices_S256x256_S256x128_0_0)) Facts₀.transposes_S256x128_S128x256_1_0) (transpose S128x256 [1, 0] ((extractStridedSlice S256x128 ![0, 128] (m ((c : Thread nD τ).loc main_arg8) : S256x256.Idx → EReal) Facts₀.slices_S256x256_S256x128_0_128)) Facts₀.transposes_S256x128_S128x256_1_0) (m ((c : Thread nD τ).loc main_arg9)) (transpose S256x128 [1, 0] (m ((c : Thread nD τ).loc main_arg10) : S128x256.Idx → EReal) Facts₀.transposes_S128x256_S256x128_1_0) (m ((c : Thread nD τ).loc main_arg11)) := by
  refine ((W5_v23 m ρ c).trans (W4_v23 m ρ c)).trans ?_
  show Cert.Gnn.node (W3 m ρ c (Proc.devRef .tc main_arg0)) (W3 m ρ c (Proc.devRef .tc main_v14)) (W3 m ρ c (Proc.devRef .tc main_v17)) (W3 m ρ c (Proc.devRef .tc main_v20)) (W3 m ρ c (Proc.devRef .tc main_arg9)) (W3 m ρ c (Proc.devRef .tc main_v22)) (W3 m ρ c (Proc.devRef .tc main_arg11)) = _
  rw [W3_arg0, W3_v14, W3_v17, W3_v20, W3_arg9, W3_v22, W3_arg11, W2_v4, W2_arg0, W2_arg2, W2_arg3, W2_arg8, W2_arg9, W2_arg10, W2_arg11,
    W1_arg0, W1_arg2, W1_arg3, W1_arg8, W1_arg9, W1_arg10, W1_arg11]

/-- The new edge features: the edge features added to themselves. -/
theorem result_edges (c : Dev nD) : (W5 m ρ c (Proc.devRef .tc main_v24) : S500000x16.Idx → EReal) = addf (F := Ideal) (s := S500000x16) (φ := .f32) (m ((c : Thread nD τ).loc main_arg1)) (m ((c : Thread nD τ).loc main_arg1)) := by
  refine (W5_v24 m ρ c).trans ?_
  rw [W4_arg1, W3_arg1, W2_arg1, W1_arg1]

end Cert.Gnn.Walk

end
-- ==== Proof.KernelValue.lean ====
/-
  The idealized kernel's two results as functions of the launch memory: the new node features are the update of the
  features and the aggregate of their messages; the new edge features are the edge features added to themselves.
-/
import proofs.«127124_j56968446214209_1_alg».proof.Proof.RunValues
import proofs.«127124_j56968446214209_1_alg».proof.Proof.Walk

set_option maxRecDepth 16384

noncomputable section

namespace Cert.Gnn.Value

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The new node features. -/
def newNodes (c : Dev nD) : S50000x128.Idx → EReal :=
  Cert.Gnn.node (m ((c : Thread nD τ).loc main_arg0))
    (Cert.Gnn.agg gather_S50000x128_S500000x1_S500000x128_1_0_n_n_0_1_1128 scatter_S50000x128_S500000x1_S500000x128_1_0_0_1
      Facts₀.bcast_S_S500000 Facts₀.bcast_S500000_S500000x1_0 Facts₀.bcast_S_S50000x128 (Cert.Gnn.mlp (m ((c : Thread nD τ).loc main_arg0)) (transpose S128x256 [1, 0] (m ((c : Thread nD τ).loc main_arg4)) Facts₀.transposes_S256x128_S128x256_1_0) (m ((c : Thread nD τ).loc main_arg5)) (transpose S256x128 [1, 0] (m ((c : Thread nD τ).loc main_arg6)) Facts₀.transposes_S128x256_S256x128_1_0) (m ((c : Thread nD τ).loc main_arg7))) (m ((c : Thread nD τ).loc main_arg2)) (m ((c : Thread nD τ).loc main_arg3)))
    (transpose S128x256 [1, 0] ((extractStridedSlice S256x128 ![0, 0] (m ((c : Thread nD τ).loc main_arg8) : S256x256.Idx → EReal) Facts₀.slices_S256x256_S256x128_0_0)) Facts₀.transposes_S256x128_S128x256_1_0) (transpose S128x256 [1, 0] ((extractStridedSlice S256x128 ![0, 128] (m ((c : Thread nD τ).loc main_arg8) : S256x256.Idx → EReal) Facts₀.slices_S256x256_S256x128_0_128)) Facts₀.transposes_S256x128_S128x256_1_0) (m ((c : Thread nD τ).loc main_arg9)) (transpose S256x128 [1, 0] (m ((c : Thread nD τ).loc main_arg10) : S128x256.Idx → EReal) Facts₀.transposes_S128x256_S256x128_1_0) (m ((c : Thread nD τ).loc main_arg11))

/-- The new edge features. -/
def newEdges (c : Dev nD) : S500000x16.Idx → EReal :=
  addf (F := Ideal) (s := S500000x16) (φ := .f32) (m ((c : Thread nD τ).loc main_arg1)) (m ((c : Thread nD τ).loc main_arg1))

/-- Every weakly fair execution of the idealized kernel terminates, nothing faulting, with the two results at
    `newNodes` and `newEdges` of the launch memory and the arguments unchanged. -/
theorem run : θ_run defs (onTc (τ := τ) (main (F := Ideal))) ⟨m, fun _ => 0, ρ⟩ (fun r => ∀ c : Dev nD,
      r.2.mem ((c.tc : Thread nD τ).loc main_v23) = newNodes m c
      ∧ r.2.mem ((c.tc : Thread nD τ).loc main_v24) = newEdges m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run (defs (F := Ideal)) _ _).mono
    (fun r h c => ⟨(h c).1.trans (Cert.Gnn.Walk.result_nodes m ρ c), (h c).2.1.trans (Cert.Gnn.Walk.result_edges m ρ c), (h c).2.2⟩)
    (Cert.Gnn.Run.run_values (F := Ideal) m ρ)

end Cert.Gnn.Value

end
-- ==== Proof.LibConcatCols.lean ====
/-
  Two arrays with the same rows joined side by side, read at an entry.

  Joining an [R, A] array and an [R, B] array along the second axis gives an [R, C] array (C = A + B) whose entry
  (r, k') is the first array's entry (r, k') when k' < A, and the second array's entry (r, k' - A) otherwise.
  Generic in R, A, B, C and in the entries' type.
-/
import Idealize.ShloMosaic.Lib.Pipeline.Value
import Idealize.ShloMosaic.Lib.ValueIdx

noncomputable section

namespace Cert.LibConcatCols

open Idealize.ShloMosaic Idealize.ShloMosaic.ValueIdx

variable {α : Type}

/-- An entry whose column lies in the first piece is the first piece's entry at the same row and column. -/
theorem concat_cols_left {R A B C : Nat} (a : (⟨2, ![R, A]⟩ : Shape).Idx → α) (b : (⟨2, ![R, B]⟩ : Shape).Idx → α)
    (h : Shape.Concatenates [⟨2, ![R, A]⟩, ⟨2, ![R, B]⟩] ⟨2, ![R, C]⟩ 1) (r : Fin R) (k : Fin A) (k' : Fin C) (hk : k'.val = k.val) :
    concatenate ⟨2, ![R, C]⟩ 1 [⟨⟨2, ![R, A]⟩, a⟩, ⟨⟨2, ![R, B]⟩, b⟩] h (ix2 r k') = a (ix2 r k) :=
  concatenate_pair_apply_left 1 a b h (ix2 r k') rfl (ix2 r k) fun ax => by
    match ax with
    | ⟨0, _⟩ => rfl
    | ⟨1, _⟩ => exact hk.symm

/-- An entry whose column lies in the second piece is the second piece's entry at the same row, the column moved back
    by the first piece's width. -/
theorem concat_cols_right {R A B C : Nat} (a : (⟨2, ![R, A]⟩ : Shape).Idx → α) (b : (⟨2, ![R, B]⟩ : Shape).Idx → α)
    (h : Shape.Concatenates [⟨2, ![R, A]⟩, ⟨2, ![R, B]⟩] ⟨2, ![R, C]⟩ 1) (r : Fin R) (k : Fin B) (k' : Fin C) (hk : k'.val = A + k.val) :
    concatenate ⟨2, ![R, C]⟩ 1 [⟨⟨2, ![R, A]⟩, a⟩, ⟨⟨2, ![R, B]⟩, b⟩] h (ix2 r k') = b (ix2 r k) :=
  concatenate_pair_apply_right 1 a b h (ix2 r k') rfl rfl (ix2 r k)
    (fun ax hne => by
      match ax with
      | ⟨0, _⟩ => rfl
      | ⟨1, _⟩ => exact absurd rfl hne)
    (by show k.val + A = k'.val; omega)

end Cert.LibConcatCols

end
-- ==== Proof.LibJoinedRows.lean ====
/-
  Layout reads a gather / scatter pipeline over an edge list meets, each at an entry given by its coordinates, generic in
  the extents and (but for the last section) the entry type:

  * a scalar spread over any shape reads the scalar everywhere;
  * a vector `[a]` made a column `[a, 1]` reads, at `(i, 0)`, the vector's entry `i`;
  * a column `[a, 1]` spread across `[a, b]` reads, at `(i, j)`, the column's entry `i`;
  * the transpose of an `[a, b]` matrix reads, at `(j, i)`, the matrix at `(i, j)`;
  * two arrays joined along their first axis (`[E₁, C]` and `[E₂, C]` into `[T, C]`; `[E₁]` and `[E₂]` into `[T]`) read
    the first piece at a row below `E₁` and the second piece, `E₁` rows up, at or above it;
  * a sum over the `T = E₁ + E₂` rows of a joined array is the sum over the first piece's rows plus the sum over the
    second piece's.
-/
import Idealize.ShloMosaic.Lib.Pipeline.Value
import Idealize.ShloMosaic.Lib.ValueIdx

noncomputable section

open scoped BigOperators

namespace Cert.LibJoinedRows

open Idealize.ShloMosaic Idealize.ShloMosaic.ValueIdx

variable {α : Type}

/-- A scalar spread over a shape reads the scalar at every index. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads the vector's entry. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column spread across the columns of each row reads the column's entry of that row. -/
theorem bcast_col_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x _ (ix2 i (0 : Fin 1)) fun ax => ?_
  match ax with
  | ⟨0, _⟩ =>
    show i.val = if a = 1 then 0 else i.val
    split
    · have := i.isLt; omega
    · rfl
  | ⟨1, _⟩ => rfl

/-- The transpose of a matrix reads the matrix at the swapped coordinates. -/
theorem transpose2_apply {a b : ℕ} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) := by
  refine transpose_apply [1, 0] x h (ix2 j i) (ix2 i j) fun bx => ?_
  match bx with
  | ⟨0, _⟩ => rfl
  | ⟨1, _⟩ => rfl

/-! ## Two arrays joined along the first axis -/

section Join
variable {E1 E2 T C : ℕ}

/-- A row below the first piece's extent reads the first piece. -/
theorem join_rows_left (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E1) (he : e.val < T) (c : Fin C) :
    concatenate ⟨2, ![T, C]⟩ 0 [⟨_, x₁⟩, ⟨_, x₂⟩] h (ix2 ⟨e.val, he⟩ c) = x₁ (ix2 e c) :=
  concatenate_pair_apply_left 0 x₁ x₂ h _ rfl (ix2 e c) (fun b => by
    match b with
    | ⟨0, _⟩ => rfl
    | ⟨1, _⟩ => rfl)

/-- A row at or above it reads the second piece, that many rows up. -/
theorem join_rows_right (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E2) (he : E1 + e.val < T) (c : Fin C) :
    concatenate ⟨2, ![T, C]⟩ 0 [⟨_, x₁⟩, ⟨_, x₂⟩] h (ix2 ⟨E1 + e.val, he⟩ c) = x₂ (ix2 e c) :=
  concatenate_pair_apply_right 0 x₁ x₂ h _ rfl rfl (ix2 e c) (fun b hb => by
    match b with
    | ⟨0, _⟩ => exact absurd rfl hb
    | ⟨1, _⟩ => rfl) (by show e.val + E1 = E1 + e.val; omega)

/-- The same for one-axis arrays: an entry below the first piece's extent … -/
theorem join_vec_left (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E1) (he : e.val < T) :
    concatenate ⟨1, ![T]⟩ 0 [⟨_, x₁⟩, ⟨_, x₂⟩] h (ix1 ⟨e.val, he⟩) = x₁ (ix1 e) :=
  concatenate_pair_apply_left 0 x₁ x₂ h _ rfl (ix1 e) (fun b => by
    match b with
    | ⟨0, _⟩ => rfl)

/-- … and one at or above it. -/
theorem join_vec_right (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E2) (he : E1 + e.val < T) :
    concatenate ⟨1, ![T]⟩ 0 [⟨_, x₁⟩, ⟨_, x₂⟩] h (ix1 ⟨E1 + e.val, he⟩) = x₂ (ix1 e) :=
  concatenate_pair_apply_right 0 x₁ x₂ h _ rfl rfl (ix1 e) (fun b hb => by
    match b with
    | ⟨0, _⟩ => exact absurd rfl hb) (by show e.val + E1 = E1 + e.val; omega)

/-- A sum over `T = E₁ + E₂` rows is the sum over the first `E₁` plus the sum over the last `E₂`. -/
theorem sum_rows_split {M : Type} [AddCommMonoid M] (hT : T = E1 + E2) (f : Fin T → M) :
    ∑ e', f e' = ∑ e : Fin E1, f ⟨e.val, by omega⟩ + ∑ e : Fin E2, f ⟨E1 + e.val, by omega⟩ := by
  subst hT
  rw [Fin.sum_univ_add]
  congr 1 <;> exact Finset.sum_congr rfl fun e _ => congrArg f (Fin.ext rfl)

end Join

end Cert.LibJoinedRows

end
-- ==== Proof.RefSpec.lean ====
/-
  The reference's stages, read as the specification's functions.
-/
import proofs.«127124_j56968446214209_1_alg».proof.Proof.Gen.ReferenceIdeal.Read
import proofs.«127124_j56968446214209_1_alg».proof.Proof.Spec
import proofs.«127124_j56968446214209_1_alg».proof.Proof.LibPlainDot
import proofs.«127124_j56968446214209_1_alg».proof.Proof.LibConcatCols
import proofs.«127124_j56968446214209_1_alg».proof.Proof.LibJoinedRows
import Idealize.ShloMosaic.Lib.ValueIdx
import Idealize.ShloMosaic.Lib.ValueLayout
import Idealize.ShloMosaic.Lib.Pipeline.Value

noncomputable section

namespace Cert.Gnn.Ref

open Idealize.ShloMosaic Idealize.ShloMosaic.ValueIdx Cert.ReferenceIdeal Cert.ReferenceIdeal.Facts₀ Cert.ReferenceIdeal.Read

/-- The reference's messages are the perceptron of the features, its two weight matrices transposed. -/
theorem ref_msg (x0 : (⟨S50000x128, .f32⟩ : BufTy).Contents (Elt Ideal)) (x4 : (⟨S256x128, .f32⟩ : BufTy).Contents (Elt Ideal)) (x5 : (⟨S256, .f32⟩ : BufTy).Contents (Elt Ideal))
    (x6 : (⟨S128x256, .f32⟩ : BufTy).Contents (Elt Ideal)) (x7 : (⟨S128, .f32⟩ : BufTy).Contents (Elt Ideal)) :
    val_main_v10 (F := Ideal) x0 x4 x5 x6 x7
      = Cert.Gnn.mlp x0 (transpose S128x256 [1, 0] x4 transposes_S256x128_S128x256_1_0) x5
          (transpose S256x128 [1, 0] x6 transposes_S128x256_S256x128_1_0) x7 := by
  -- entry (p, q): both sides are a sum over the 256 hidden units plus the second bias
  funext i
  obtain ⟨p, q, rfl⟩ : ∃ (p : Fin 50000) (q : Fin 128), i = ix2 p q := ⟨i 0, i 1, eq_ix2 i⟩
  rw [Cert.Gnn.mlp_apply]
  unfold Cert.Gnn.mlpAt
  rw [val_main_v10_apply, val_main_v7_apply, val_main_v9_apply, val_main_v8_apply]
  have e7l : ∀ k : Fin 256, lidx_main_v7 (ix2 p q) k = ix2 p k := fun k => funext fun a => by
    match a with
    | ⟨0, _⟩ => rfl
    | ⟨1, _⟩ => rfl
  have e7r : ∀ k : Fin 256, ridx_main_v7 (ix2 p q) k = ix2 k q := fun k => funext fun a => by
    match a with
    | ⟨0, _⟩ => rfl
    | ⟨1, _⟩ => rfl
  have e9 : idx_main_v8 (idx_main_v9 (ix2 p q)) = ix1 q := funext fun a => by
    match a with
    | ⟨0, _⟩ => rfl
  rw [e9, Ideal.addf_def]
  congr 1
  refine Finset.sum_congr rfl fun k _ => ?_
  rw [e7l, e7r, val_main_v5_apply, val_main_v4_apply, val_main_v1_apply, val_main_v3_apply, val_main_v2_apply,
    val_main_call0_v0_apply, val_main_call0_cst_apply]
  -- hidden unit k: the features' row p against column k of the transposed first matrix, plus the bias, clipped at zero
  have e1l : ∀ j : Fin 128, lidx_main_v1 (ix2 p k) j = ix2 p j := fun j => funext fun a => by
    match a with
    | ⟨0, _⟩ => rfl
    | ⟨1, _⟩ => rfl
  have e1r : ∀ j : Fin 128, ridx_main_v1 (ix2 p k) j = ix2 j k := fun j => funext fun a => by
    match a with
    | ⟨0, _⟩ => rfl
    | ⟨1, _⟩ => rfl
  have e3 : idx_main_v2 (idx_main_v3 (ix2 p k)) = ix1 k := funext fun a => by
    match a with
    | ⟨0, _⟩ => rfl
  have hz : (FloatOps.ofBits FTy.f32 0x00000000#32 : Ideal .f32) = 0 := Ideal.ofBits_zero_f32
  rw [e3, hz, Ideal.maximumf_def, Ideal.addf_def]
  simp only [e1l, e1r]
  rfl

/-- The reference's aggregate is the composite `agg` of its messages. -/
theorem ref_agg (x0 : (⟨S50000x128, .f32⟩ : BufTy).Contents (Elt Ideal)) (x2 x3 : (⟨S500000, .i32⟩ : BufTy).Contents (Elt Ideal)) (x4 : (⟨S256x128, .f32⟩ : BufTy).Contents (Elt Ideal)) (x5 : (⟨S256, .f32⟩ : BufTy).Contents (Elt Ideal))
    (x6 : (⟨S128x256, .f32⟩ : BufTy).Contents (Elt Ideal)) (x7 : (⟨S128, .f32⟩ : BufTy).Contents (Elt Ideal)) :
    val_main_v20 (F := Ideal) x0 x2 x3 x4 x5 x6 x7
      = Cert.Gnn.agg gather_S50000x128_S500000x1_S500000x128_1_0_n_n_0_1_1128 scatter_S50000x128_S500000x1_S500000x128_1_0_0_1
          bcast_S_S500000 bcast_S500000_S500000x1_0 bcast_S_S50000x128 (val_main_v10 (F := Ideal) x0 x4 x5 x6 x7) x2 x3 := by
  rfl

/-- The reference's new features are the node update of the features and the aggregate: its one product of the
    joined row [features, aggregate] with the whole first-layer matrix is the sum of the two half products. -/
theorem ref_node (hs0 : S256x256.Slices ![0, 0] S256x128) (hs1 : S256x256.Slices ![0, 128] S256x128)
    (x0 : (⟨S50000x128, .f32⟩ : BufTy).Contents (Elt Ideal)) (x2 x3 : (⟨S500000, .i32⟩ : BufTy).Contents (Elt Ideal)) (x4 : (⟨S256x128, .f32⟩ : BufTy).Contents (Elt Ideal)) (x5 : (⟨S256, .f32⟩ : BufTy).Contents (Elt Ideal))
    (x6 : (⟨S128x256, .f32⟩ : BufTy).Contents (Elt Ideal)) (x7 : (⟨S128, .f32⟩ : BufTy).Contents (Elt Ideal)) (x8 : (⟨S256x256, .f32⟩ : BufTy).Contents (Elt Ideal)) (x9 : (⟨S256, .f32⟩ : BufTy).Contents (Elt Ideal))
    (x10 : (⟨S128x256, .f32⟩ : BufTy).Contents (Elt Ideal)) (x11 : (⟨S128, .f32⟩ : BufTy).Contents (Elt Ideal)) :
    val_main_v33 (F := Ideal) x0 x2 x3 x4 x5 x6 x7 x8 x9 x10 x11
      = Cert.Gnn.node x0 (val_main_v20 (F := Ideal) x0 x2 x3 x4 x5 x6 x7)
          (transpose S128x256 [1, 0] (extractStridedSlice S256x128 ![0, 0] x8 hs0) transposes_S256x128_S128x256_1_0)
          (transpose S128x256 [1, 0] (extractStridedSlice S256x128 ![0, 128] x8 hs1) transposes_S256x128_S128x256_1_0)
          x9 (transpose S256x128 [1, 0] x10 transposes_S128x256_S256x128_1_0) x11 := by
  -- entry (p, q): the features' entry plus a sum over the 256 hidden units plus the second bias
  funext i
  obtain ⟨p, q, rfl⟩ : ∃ (p : Fin 50000) (q : Fin 128), i = ix2 p q := ⟨i 0, i 1, eq_ix2 i⟩
  rw [Cert.Gnn.node_apply]
  unfold Cert.Gnn.nodeAt
  rw [val_main_v33_apply, val_main_v32_apply, val_main_v29_apply, val_main_v31_apply, val_main_v30_apply]
  have e29l : ∀ k : Fin 256, lidx_main_v29 (ix2 p q) k = ix2 p k := fun k => funext fun a => by
    match a with
    | ⟨0, _⟩ => rfl
    | ⟨1, _⟩ => rfl
  have e29r : ∀ k : Fin 256, ridx_main_v29 (ix2 p q) k = ix2 k q := fun k => funext fun a => by
    match a with
    | ⟨0, _⟩ => rfl
    | ⟨1, _⟩ => rfl
  have e31 : idx_main_v30 (idx_main_v31 (ix2 p q)) = ix1 q := funext fun a => by
    match a with
    | ⟨0, _⟩ => rfl
  rw [e31, Ideal.addf_def, Ideal.addf_def]
  congr 2
  refine Finset.sum_congr rfl fun k _ => ?_
  rw [e29l, e29r, val_main_v27_apply, val_main_v26_apply, val_main_v23_apply, val_main_v25_apply, val_main_v24_apply,
    val_main_call1_v0_apply, val_main_call1_cst_apply]
  have e23l : ∀ j : Fin 256, lidx_main_v23 (ix2 p k) j = ix2 p j := fun j => funext fun a => by
    match a with
    | ⟨0, _⟩ => rfl
    | ⟨1, _⟩ => rfl
  have e23r : ∀ j : Fin 256, ridx_main_v23 (ix2 p k) j = ix2 j k := fun j => funext fun a => by
    match a with
    | ⟨0, _⟩ => rfl
    | ⟨1, _⟩ => rfl
  have e25 : idx_main_v24 (idx_main_v25 (ix2 p k)) = ix1 k := funext fun a => by
    match a with
    | ⟨0, _⟩ => rfl
  have hz : (FloatOps.ofBits FTy.f32 0x00000000#32 : Ideal .f32) = 0 := Ideal.ofBits_zero_f32
  rw [e25, hz, Ideal.maximumf_def, Ideal.addf_def]
  simp only [e23l, e23r]
  -- the joined row [features, aggregate] against row k of the first-layer matrix: columns 0..127 meet the features,
  -- columns 128..255 the aggregate
  have hsum : (∑ j : Fin 256, val_main_v21 (F := Ideal) x0 x2 x3 x4 x5 x6 x7 (ix2 p j) * val_main_v22 (F := Ideal) x8 (ix2 j k))
      = (∑ j : Fin 128, x0 (ix2 p j)
            * transpose S128x256 [1, 0] (extractStridedSlice S256x128 ![0, 0] x8 hs0) transposes_S256x128_S128x256_1_0 (ix2 j k))
        + ∑ j : Fin 128, val_main_v20 (F := Ideal) x0 x2 x3 x4 x5 x6 x7 (ix2 p j)
            * transpose S128x256 [1, 0] (extractStridedSlice S256x128 ![0, 128] x8 hs1) transposes_S256x128_S128x256_1_0 (ix2 j k) := by
    refine (Cert.LibJoinedRows.sum_rows_split (E1 := 128) (E2 := 128) (T := 256) rfl _).trans ?_
    refine congrArg₂ (· + ·) ?_ ?_
    · refine Finset.sum_congr rfl fun j _ => ?_
      unfold val_main_v21 val_main_v22
      rw [Cert.LibConcatCols.concat_cols_left (C := 256) x0 (val_main_v20 (F := Ideal) x0 x2 x3 x4 x5 x6 x7)
          concatenates_S50000x128_S50000x128_S50000x256_d1 p j ⟨j.val, by omega⟩ rfl,
        Cert.LibJoinedRows.transpose2_apply, Cert.LibJoinedRows.transpose2_apply,
        slice2_axis1_apply 0 x8 hs0 k j ⟨j.val, by omega⟩ (Nat.zero_add _).symm]
    · refine Finset.sum_congr rfl fun j _ => ?_
      unfold val_main_v21 val_main_v22
      rw [Cert.LibConcatCols.concat_cols_right (C := 256) x0 (val_main_v20 (F := Ideal) x0 x2 x3 x4 x5 x6 x7)
          concatenates_S50000x128_S50000x128_S50000x256_d1 p j ⟨128 + j.val, by omega⟩ rfl,
        Cert.LibJoinedRows.transpose2_apply, Cert.LibJoinedRows.transpose2_apply,
        slice2_axis1_apply 128 x8 hs1 k j ⟨128 + j.val, by omega⟩ rfl]
  rw [hsum]
  rfl

end Cert.Gnn.Ref

end
-- ==== Proof.lean ====
/-
  One round of message passing on a graph — a two-layer perceptron of every node's features, the messages summed along
  the edges into their receivers, and a second two-layer perceptron of the features and the aggregate added back to
  the features — computed by two tiled kernels with the gather and the scatter between them on the host, against the
  same round written with plain array operations.

  Over the extended reals the two programs compute the same function of their arguments.  Both perceptrons agree term
  by term once a change of float format is the identity and a product accumulated into zeros is the plain sum of
  products.  The aggregation is literally the same composite of operations on both sides, applied to equal message
  arrays.  The one rearrangement is in the update's first layer: the reference multiplies the joined row
  [features, aggregate] by the whole 256-column matrix, the kernel adds the products of the two halves — a finite sum
  split in two, which holds in any commutative monoid, so no finiteness of the inputs is used.  The edge features are
  doubled by the same operation in both.

  Proof/Spec.lean states the round entry by entry; Proof/Payload.lean reads the two kernel bodies, Proof/Region0.lean and
  Proof/Region1.lean each region's output array, Proof/RunValues.lean and Proof/Walk.lean the kernel's run and its
  results as functions of the launch memory; Proof/RefSpec.lean reads the reference.  The frames and the programs'
  stated side conditions are the generated modules'; the idealization rewrote nothing, so it preserves trivially.
-/
import proofs.«127124_j56968446214209_1_alg».proof.Defs
import proofs.«127124_j56968446214209_1_alg».proof.Proof.Gen.Kernel
import proofs.«127124_j56968446214209_1_alg».proof.Proof.Gen.Kernel.Frame
import proofs.«127124_j56968446214209_1_alg».proof.Proof.Gen.KernelIdeal
import proofs.«127124_j56968446214209_1_alg».proof.Proof.Gen.KernelIdeal.Frame
import proofs.«127124_j56968446214209_1_alg».proof.Proof.Gen.ReferenceIdeal
import proofs.«127124_j56968446214209_1_alg».proof.Proof.Gen.ReferenceIdeal.Run
import proofs.«127124_j56968446214209_1_alg».proof.Proof.Gen.ReferenceIdeal.Read
import proofs.«127124_j56968446214209_1_alg».proof.Proof.Gen.Pre_finite_inputs
import proofs.«127124_j56968446214209_1_alg».proof.Proof.Spec
import proofs.«127124_j56968446214209_1_alg».proof.Proof.RunValues
import proofs.«127124_j56968446214209_1_alg».proof.Proof.Walk
import proofs.«127124_j56968446214209_1_alg».proof.Proof.KernelValue
import proofs.«127124_j56968446214209_1_alg».proof.Proof.RefSpec
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both idealized programs, run from memories that agree on the arguments, end with the same two results. -/
theorem algebraic : Cert.algebraic_KernelIdeal_ReferenceIdeal := by
  intro m ρ m' ρ' _ hagree
  refine ⟨Cert.Gnn.Value.newNodes m, Cert.Gnn.Value.newEdges m, Cert.Gnn.Value.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11⟩ := hagree c
    rw [a0, a2, a3, a4, a5, a6, a7, a8, a9, a10, a11, Cert.ReferenceIdeal.Read.val_main_v33_eq,
      Cert.Gnn.Ref.ref_node Cert.KernelIdeal.Facts₀.slices_S256x256_S256x128_0_0 Cert.KernelIdeal.Facts₀.slices_S256x256_S256x128_0_128,
      Cert.Gnn.Ref.ref_agg, Cert.Gnn.Ref.ref_msg]
    rfl
  · obtain ⟨a0, a1, a2, a3, a4, a5, a6, a7, a8, a9, a10, a11⟩ := hagree c
    rw [a1]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
